-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S2x600000 : Shape := ⟨2, ![2, 600000]⟩
abbrev S600000 : Shape := ⟨1, ![600000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg6 : FVec F S600000 .f32) (main_v13 : IVec S_ 1) (main_v16 : IVec S600000 1) : IVec S_ 1 :=
  let main_c_5 : IVec S_ 1 := constantI S_ 1 1#1
  let main_v17 : IVec S_ 1 := (fun x v => Host.reduce IntOp.andi x v reducesTo_S600000_S_d0 h_S_) main_v16 main_c_5
  let main_v18 : IVec S_ 1 := andi main_v13 main_v17
  let main_v19 : FVec F S600000 .f32 := Host.absf main_arg6
  let main_cst_6 : FVec F S_ .f32 := constant S_ .f32 0x7F800000#32
  let main_v20 : FVec F S600000 .f32 := broadcastInDim S600000 ![] bcast_S_S600000 main_cst_6
  let main_v21 : IVec S600000 1 := cmpf .olt main_v19 main_v20
  let main_c_7 : IVec S_ 1 := constantI S_ 1 1#1
  let main_v22 : IVec S_ 1 := (fun x v => Host.reduce IntOp.andi x v reducesTo_S600000_S_d0 h_S_) main_v21 main_c_7
  let main_v23 : IVec S_ 1 := andi main_v18 main_v22
  main_v23

def fn {F : FTy → Type} [FloatOps F] (main_arg0 : FVec F S50000x512 .f32) (main_arg1 : FVec F S512x128 .f32) (main_arg2 : FVec F S512x128 .f32) (main_arg3 : IVec S2x600000 32) (main_arg4 : FVec F S600000 .f32) (main_arg5 : IVec S2x600000 32) (main_arg6 : FVec F S600000 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S600000 .f32 := Host.absf main_arg4
  let main_cst_4 : FVec F S_ .f32 := constant S_ .f32 0x7F800000#32
  let main_v15 : FVec F S600000 .f32 := broadcastInDim S600000 ![] bcast_S_S600000 main_cst_4
  let main_v16 : IVec S600000 1 := cmpf .olt main_v14 main_v15
  fn_part1 (F := F) main_arg6 main_v13 main_v16
-- ==== Kernel.lean ====
abbrev S50000x512 : Shape := ⟨2, ![50000, 512]⟩
abbrev S512x128 : Shape := ⟨2, ![512, 128]⟩
abbrev S2x600000 : Shape := ⟨2, ![2, 600000]⟩
abbrev S600000 : Shape := ⟨1, ![600000]⟩
abbrev S50000x128 : Shape := ⟨2, ![50000, 128]⟩
abbrev S2000x512 : Shape := ⟨2, ![2000, 512]⟩
abbrev S2000x128 : Shape := ⟨2, ![2000, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 50
  | .vmem => 8
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S512x128, .f32⟩
  | .hbm, ⟨3, _⟩ => ⟨S2x600000, .i32⟩
  | .hbm, ⟨4, _⟩ => ⟨S600000, .f32⟩
  | .hbm, ⟨5, _⟩ => ⟨S2x600000, .i32⟩
  | .hbm, ⟨6, _⟩ => ⟨S600000, .f32⟩
  | .hbm, ⟨7, _⟩ => ⟨S50000x128, .f32⟩
  | .hbm, ⟨8, _⟩ => ⟨S50000x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S600000x1, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S1x600000, .i32⟩
  | .hbm, ⟨30, _⟩ => ⟨S600000, .i32⟩
  | .hbm, ⟨31, _⟩ => ⟨S1x600000, .i32⟩
  | .hbm, ⟨32, _⟩ => ⟨S600000, .i32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S600000x1, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S512x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  dot_S2000x512_S512x128_S2000x128_1_0_0_1_n_n_wf : DotDims.WF S2000x512 S512x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S2x600000 : Shape := ⟨2, ![2, 600000]⟩
abbrev S600000 : Shape := ⟨1, ![600000]⟩
abbrev S50000x128 : Shape := ⟨2, ![50000, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 50
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S512x128, .f32⟩
  | .hbm, ⟨3, _⟩ => ⟨S2x600000, .i32⟩
  | .hbm, ⟨4, _⟩ => ⟨S600000, .f32⟩
  | .hbm, ⟨5, _⟩ => ⟨S2x600000, .i32⟩
  | .hbm, ⟨6, _⟩ => ⟨S600000, .f32⟩
  | .hbm, ⟨7, _⟩ => ⟨S50000x128, .f32⟩
  | .hbm, ⟨8, _⟩ => ⟨S50000x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S600000x1, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S1x600000, .i32⟩
  | .hbm, ⟨30, _⟩ => ⟨S600000, .i32⟩
  | .hbm, ⟨31, _⟩ => ⟨S1x600000, .i32⟩
  | .hbm, ⟨32, _⟩ => ⟨S600000, .i32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S600000x1, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  dot_S50000x512_S512x128_S50000x128_1_0_0_1_n_n_wf : DotDims.WF S50000x512 S512x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.BlockProduct.lean ====
/-
  What the kernel body computes from its blocks, read at an entry.

  At one grid point the body holds a block of 2000 rows of the node features and the two whole weight
  matrices. It rounds all three to bf16 — at the extended reals a change of format is the identity — and
  multiplies the rows by each matrix into a zero accumulator. So entry (p, c) of either product is
  Σ_k rows[p, k] · weights[k, c], k over the 512 input features: the accumulator contributes its zero,
  and the product's contraction index, a one-axis index, is re-indexed to its single coordinate.
-/
import proofs.«163216_j72181220376891_1_alg».proof.Proof.Gen.KernelIdeal.Skeleton
import Idealize.ShloMosaic.Lib.ValueIdx
import Idealize.ShloMosaic.PureOps.Ideal.Laws

noncomputable section

namespace Cert.KernelIdeal.BlockProduct

open Cert.KernelIdeal Cert.KernelIdeal.Gen Idealize.ShloMosaic

/-- The entry of the row block that the `k`-th term of product entry `j` reads: row of `j`, column `k`. -/
abbrev rowsAt (j : S2000x128.Idx) (k : Fin 512) : S2000x512.Idx := fun a => match a with
  | ⟨0, _⟩ => ⟨(j 0).val, (j 0).isLt⟩
  | ⟨1, _⟩ => ⟨k.val, k.isLt⟩

/-- The entry of the weights that term reads: row `k`, column of `j`. -/
abbrev weightsAt (j : S2000x128.Idx) (k : Fin 512) : S512x128.Idx := fun a => match a with
  | ⟨0, _⟩ => ⟨k.val, k.isLt⟩
  | ⟨1, _⟩ => ⟨(j 1).val, (j 1).isLt⟩

theorem lhs_row (j : S2000x128.Idx) (q : dot_S2000x512_S512x128_S2000x128_1_0_0_1_n_n.contr.Idx) :
    (dot_S2000x512_S512x128_S2000x128_1_0_0_1_n_n.lhsIdx j q 0).val = (j 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_col (j : S2000x128.Idx) (q : dot_S2000x512_S512x128_S2000x128_1_0_0_1_n_n.contr.Idx) :
    (dot_S2000x512_S512x128_S2000x128_1_0_0_1_n_n.lhsIdx j q 1).val = (q ⟨0, by decide⟩).val :=
  dot_S2000x512_S512x128_S2000x128_1_0_0_1_n_n.lhsIdx_val_of_single rfl j q
theorem rhs_row (j : S2000x128.Idx) (q : dot_S2000x512_S512x128_S2000x128_1_0_0_1_n_n.contr.Idx) :
    (dot_S2000x512_S512x128_S2000x128_1_0_0_1_n_n.rhsIdx j q 0).val = (q ⟨0, by decide⟩).val :=
  dot_S2000x512_S512x128_S2000x128_1_0_0_1_n_n.rhsIdx_val_of_single rfl j q
theorem rhs_col (j : S2000x128.Idx) (q : dot_S2000x512_S512x128_S2000x128_1_0_0_1_n_n.contr.Idx) :
    (dot_S2000x512_S512x128_S2000x128_1_0_0_1_n_n.rhsIdx j q 1).val = (j 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- A 2000 × 512 block times a 512 × 128 matrix into the zero accumulator, at entry `j`: the plain sum of products. -/
theorem product_apply (l : FVec Ideal S2000x512 .bf16) (r : FVec Ideal S512x128 .bf16) (j : S2000x128.Idx) :
    matmul dot_S2000x512_S512x128_S2000x128_1_0_0_1_n_n none l r (constant (F := Ideal) S2000x128 .f32 0x00000000#32) j
      = ∑ k : Fin 512, l (rowsAt j k) * r (weightsAt j k) := by
  simp only [matmul]
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx j ((ValueIdx.contrEquiv1 dot_S2000x512_S512x128_S2000x128_1_0_0_1_n_n 512 rfl rfl).symm k) = rowsAt j k := funext fun a => Fin.ext (by
    match a with
    | ⟨0, _⟩ => exact lhs_row _ _
    | ⟨1, _⟩ => exact (lhs_col _ _).trans hk)
  have er : dot_S2000x512_S512x128_S2000x128_1_0_0_1_n_n.rhsIdx j ((ValueIdx.contrEquiv1 dot_S2000x512_S512x128_S2000x128_1_0_0_1_n_n 512 rfl rfl).symm k) = weightsAt j k := funext fun a => Fin.ext (by
    match a with
    | ⟨0, _⟩ => exact (rhs_row _ _).trans hk
    | ⟨1, _⟩ => exact rhs_col _ _)
  rw [el, er]

/-- The first product the body stores, at an entry: rounding to bf16 is the identity on the extended reals. -/
theorem first_apply (rows : Vec Ideal S2000x512 .f32) (w : Vec Ideal S512x128 .f32) (j : S2000x128.Idx) :
    k0_pay2 (F := Ideal) rows w j = ∑ k : Fin 512, rows (rowsAt j k) * w (weightsAt j k) := by
  unfold k0_pay2 k0_pay1
  exact product_apply _ _ j

/-- The second product, likewise. -/
theorem second_apply (rows : Vec Ideal S2000x512 .f32) (w : Vec Ideal S512x128 .f32) (j : S2000x128.Idx) :
    k0_pay3 (F := Ideal) rows w j = ∑ k : Fin 512, rows (rowsAt j k) * w (weightsAt j k) := by
  unfold k0_pay3 k0_pay1
  exact product_apply _ _ j

end Cert.KernelIdeal.BlockProduct

end
-- ==== Proof.EdgeAggregate.lean ====
/-
  The sparse half of the graph convolution, as one function of the projected features.

  An adjacency is a list of 600000 weighted edges: row `0` of its index array holds the destination
  node of each edge, row `1` the source node, and a third array the edge's weight. One adjacency
  applied to a table `dense` of 50000 × 128 features is

      out[r, :] = Σ over the edges e with destination r of  weight[e] · dense[source[e], :]

  (a negative source index counts from the end of the table, as numpy's does; the row gather clamps what
  is still out of range). The layer's result is the sum of two such products, one per adjacency, each
  over its own table. Both programs compute exactly this from their two tables, so the certificate
  carries it as the single function `layer` below and never opens it.
-/
import Idealize.ShloMosaic.PureOps
import Idealize.ShloMosaic.PureOps.Ideal

noncomputable section

namespace Cert.GraphConv

open Idealize.ShloMosaic

/-- Node features: 50000 nodes, 128 features each. -/
abbrev Feat : Shape := ⟨2, ![50000, 128]⟩
/-- An adjacency's index array: destinations in row 0, sources in row 1. -/
abbrev EdgePairs : Shape := ⟨2, ![2, 600000]⟩
/-- One row of it, still carrying its unit axis. -/
abbrev EdgeRow : Shape := ⟨2, ![1, 600000]⟩
/-- One entry per edge. -/
abbrev Edges : Shape := ⟨1, ![600000]⟩
/-- One entry per edge, as a column. -/
abbrev EdgeCol : Shape := ⟨2, ![600000, 1]⟩
/-- One feature row per edge. -/
abbrev EdgeFeat : Shape := ⟨2, ![600000, 128]⟩
/-- A scalar. -/
abbrev Scal : Shape := ⟨0, ![]⟩

theorem destRow : EdgePairs.Slices ![0, 0] EdgeRow := by decide
theorem srcRow : EdgePairs.Slices ![1, 0] EdgeRow := by decide
theorem dropUnit : EdgeRow.ShapeCasts Edges := by decide
theorem splatEdges : Scal.BroadcastsInDim Edges (![] : Fin 0 → Fin Edges.rank) := by decide
theorem asColumn : Edges.BroadcastsInDim EdgeCol (![0] : Fin 1 → Fin EdgeCol.rank) := by decide
theorem alongFeatures : EdgeCol.BroadcastsInDim EdgeFeat (![0, 1] : Fin 2 → Fin EdgeFeat.rank) := by decide
theorem splatFeat : Scal.BroadcastsInDim Feat (![] : Fin 0 → Fin Feat.rank) := by decide

/-- Reading whole rows of the table, one per edge. -/
def rowGather : GatherDims Feat EdgeCol EdgeFeat where
  offsetDims := [1]
  collapsedSliceDims := [0]
  operandBatchingDims := []
  startIndicesBatchingDims := []
  startIndexMap := [0]
  indexVectorDim := 1
  sliceSizes := ![1, 128]
  wf := by decide

/-- Adding whole rows into the table, one per edge. -/
def rowScatter : ScatterDims Feat EdgeCol EdgeFeat where
  updateWindowDims := [1]
  insertedWindowDims := [0]
  scatterDimsToOperandDims := [0]
  indexVectorDim := 1
  wf := by decide

/-- One adjacency applied to a feature table: every edge reads its source's row, scales it by the edge's
    weight, and the scaled rows are summed into their destinations, starting from zero. -/
def spread (pairs : (⟨EdgePairs, .i32⟩ : BufTy).Contents (Elt Ideal)) (weight : (⟨Edges, .f32⟩ : BufTy).Contents (Elt Ideal))
    (dense : (⟨Feat, .f32⟩ : BufTy).Contents (Elt Ideal)) : (⟨Feat, .f32⟩ : BufTy).Contents (Elt Ideal) :=
  Host.scatterAdd (F := Ideal) rowScatter
    (broadcastInDim Feat ![] splatFeat (constant (F := Ideal) Scal .f32 0x00000000#32))
    (broadcastInDim EdgeCol ![0] asColumn (shapeCast _ (extractStridedSlice EdgeRow ![0, 0] pairs destRow) dropUnit))
    (mulf (F := Ideal)
      (Host.gather rowGather dense
        (broadcastInDim EdgeCol ![0] asColumn
          (select
            (cmpi .slt (shapeCast _ (extractStridedSlice EdgeRow ![1, 0] pairs srcRow) dropUnit)
              (broadcastInDim Edges ![] splatEdges (constantI Scal 32 0#32)))
            (addi (shapeCast _ (extractStridedSlice EdgeRow ![1, 0] pairs srcRow) dropUnit)
              (broadcastInDim Edges ![] splatEdges (constantI Scal 32 50000#32)))
            (shapeCast _ (extractStridedSlice EdgeRow ![1, 0] pairs srcRow) dropUnit))))
      (broadcastInDim EdgeFeat ![0, 1] alongFeatures (broadcastInDim EdgeCol ![0] asColumn weight)))

/-- The layer from its two projected tables: the two adjacencies' products, added. -/
def layer (pre0 pre1 : (⟨Feat, .f32⟩ : BufTy).Contents (Elt Ideal))
    (pairs0 : (⟨EdgePairs, .i32⟩ : BufTy).Contents (Elt Ideal)) (weight0 : (⟨Edges, .f32⟩ : BufTy).Contents (Elt Ideal))
    (pairs1 : (⟨EdgePairs, .i32⟩ : BufTy).Contents (Elt Ideal)) (weight1 : (⟨Edges, .f32⟩ : BufTy).Contents (Elt Ideal)) :
    (⟨Feat, .f32⟩ : BufTy).Contents (Elt Ideal) :=
  addf (F := Ideal) (s := Feat) (φ := .f32) (spread pairs0 weight0 pre0) (spread pairs1 weight1 pre1)

end Cert.GraphConv

end
-- ==== Proof.Projection.lean ====
/-
  The dense half of the graph convolution: the projection of the node features by a weight matrix,
  over the extended reals.

  `project x w` is the 50000 × 128 table whose entry (r, c) is Σ_k x[r, k] · w[k, c], k over the 512 input
  features. Nothing is rounded and no order of summation is recorded: a sum over a finite index set.
-/
import proofs.«163216_j72181220376891_1_alg».proof.Proof.EdgeAggregate

noncomputable section

namespace Cert.GraphConv

open Idealize.ShloMosaic

/-- The node features going in: 50000 nodes, 512 features each. -/
abbrev Inp : Shape := ⟨2, ![50000, 512]⟩
/-- A weight matrix: 512 input features by 128 output features. -/
abbrev Wt : Shape := ⟨2, ![512, 128]⟩

/-- The entry of the input that the `k`-th term of output entry `i` reads: row of `i`, column `k`. -/
abbrev inpAt (i : Feat.Idx) (k : Fin 512) : Inp.Idx := fun a => match a with
  | ⟨0, _⟩ => ⟨(i 0).val, (i 0).isLt⟩
  | ⟨1, _⟩ => ⟨k.val, k.isLt⟩

/-- The entry of the weights that term reads: row `k`, column of `i`. -/
abbrev wtAt (i : Feat.Idx) (k : Fin 512) : Wt.Idx := fun a => match a with
  | ⟨0, _⟩ => ⟨k.val, k.isLt⟩
  | ⟨1, _⟩ => ⟨(i 1).val, (i 1).isLt⟩

/-- The projected features `x · w`. -/
def project (x : (⟨Inp, .f32⟩ : BufTy).Contents (Elt Ideal)) (w : (⟨Wt, .f32⟩ : BufTy).Contents (Elt Ideal)) :
    (⟨Feat, .f32⟩ : BufTy).Contents (Elt Ideal) :=
  fun i => ∑ k : Fin 512, x (inpAt i k) * w (wtAt i k)

end Cert.GraphConv

end
-- ==== Proof.ProjectedTables.lean ====
/-
  The two tables the kernel leaves in memory are the projections `x · w0` and `x · w1`.

  The grid has 25 points. Point `t` holds rows 2000·t … 2000·t + 1999 of the node features and both whole
  weight matrices, and writes rows 2000·t … 2000·t + 1999 of each result table. By the body's arithmetic
  (the block product read at an entry) the rows it writes are those rows of the projection; the 25 row
  blocks cover all 50000 rows; so after the last point each table IS the projection of the arguments.
-/
import proofs.«163216_j72181220376891_1_alg».proof.Proof.Gen.KernelIdeal.Frame
import proofs.«163216_j72181220376891_1_alg».proof.Proof.BlockProduct
import proofs.«163216_j72181220376891_1_alg».proof.Proof.Projection
import Idealize.ShloMosaic.Lib.Pipeline.Value

noncomputable section

namespace Cert.KernelIdeal.Tables

open Cert.KernelIdeal Cert.KernelIdeal.Gen Idealize.ShloMosaic Idealize.ShloMosaic.TcCoe Idealize.SL.Sem
open Idealize.ShloMosaic.Pipeline (Dat)
open Cert.GraphConv Cert.KernelIdeal.BlockProduct

variable (m : (ℓ : Loc nD τ sig) → Buf (Elt Ideal) ℓ)

theorem origin : (![0, 0] : Fin 2 → Nat) = fun _ => 0 := funext fun a => by fin_cases a <;> rfl

/-- Where each window's block sits at point `t`: the features' and both results' at block row `t`, the two
    weight matrices whole (decided over the 25 points). -/
theorem block_rows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The features' block at point `t` is rows 2000·t … of the features. -/
theorem rows_read (c : Dev nD) (t : Fin cfg0.N) (y : S2000x512.Idx) (i : S50000x512.Idx)
    (h0 : (i 0).val = 2000 * t.val + (y 0).val) (h1 : (i 1).val = (y 1).val) :
    (iblk m c 0 t : Vec Ideal S2000x512 .f32) y = (V m c main_arg0 : S50000x512.Idx → Elt Ideal .f32) i := by
  obtain ⟨e0, e1, -⟩ := block_rows t
  unfold iblk
  rw [View.read_apply]
  show V m c main_arg0 _ = V m c main_arg0 _
  refine congrArg _ ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The first weight matrix's block at any point is the matrix. -/
theorem weights0_read (c : Dev nD) (t : Fin cfg0.N) (y : S512x128.Idx) (i : S512x128.Idx)
    (h0 : (i 0).val = (y 0).val) (h1 : (i 1).val = (y 1).val) :
    (iblk m c 1 t : Vec Ideal S512x128 .f32) y = (V m c main_arg1 : S512x128.Idx → Elt Ideal .f32) i := by
  obtain ⟨-, -, e0, e1, -⟩ := block_rows t
  unfold iblk
  rw [View.read_apply]
  show V m c main_arg1 _ = V m c main_arg1 _
  refine congrArg _ ?_
  funext a
  apply Fin.ext
  match a with
  | ⟨0, _⟩ => show win0_1.index t (0 : Fin 2) * 512 + 1 * (y 0).val = (i 0).val; rw [e0, h0]; omega
  | ⟨1, _⟩ => show win0_1.index t (1 : Fin 2) * 128 + 1 * (y 1).val = (i 1).val; rw [e1, h1]; omega

/-- The second weight matrix's block at any point is the matrix. -/
theorem weights1_read (c : Dev nD) (t : Fin cfg0.N) (y : S512x128.Idx) (i : S512x128.Idx)
    (h0 : (i 0).val = (y 0).val) (h1 : (i 1).val = (y 1).val) :
    (iblk m c 2 t : Vec Ideal S512x128 .f32) y = (V m c main_arg2 : S512x128.Idx → Elt Ideal .f32) i := by
  obtain ⟨-, -, -, -, e0, e1, -⟩ := block_rows t
  unfold iblk
  rw [View.read_apply]
  show V m c main_arg2 _ = V m c main_arg2 _
  refine congrArg _ ?_
  funext a
  apply Fin.ext
  match a with
  | ⟨0, _⟩ => show win0_2.index t (0 : Fin 2) * 512 + 1 * (y 0).val = (i 0).val; rw [e0, h0]; omega
  | ⟨1, _⟩ => show win0_2.index t (1 : Fin 2) * 128 + 1 * (y 1).val = (i 1).val; rw [e1, h1]; omega

/-- What point `t` writes back to the first table is rows 2000·t … of `x · w0`. -/
theorem flushed_first (c : Dev nD) (t : Fin cfg0.N) :
    (dats m 0 c).flushed 3 t = ((cfg0.win 3).blk t).view.read (Elt Ideal) (project (V m c main_arg0) (V m c main_arg1)) := by
  show (cfg0.win 3).cut (grid0.coords t) ((dats m 0 c).after 3 t) = _
  rw [after0_3]
  unfold out0_3
  rw [View.canon_unit_zero origin]
  simp only [View.ld_unit_zero (S := S2000x512) origin, View.ld_unit_zero (S := S512x128) origin]
  obtain ⟨-, -, -, -, -, -, e0, e1, -⟩ := block_rows t
  funext j
  show k0_pay2 (F := Ideal) (iblk m c 0 t) (iblk m c 1 t) j = project (V m c main_arg0) (V m c main_arg1) (((cfg0.win 3).blk t).view.emb j)
  refine (first_apply _ _ j).trans ?_
  unfold project
  refine Finset.sum_congr rfl fun k _ => ?_
  have hrow : ((((cfg0.win 3).blk t).view.emb j) 0).val = win0_3.index t (0 : Fin 2) * 2000 + 1 * (j 0).val := rfl
  have hcol : ((((cfg0.win 3).blk t).view.emb j) 1).val = win0_3.index t (1 : Fin 2) * 128 + 1 * (j 1).val := rfl
  refine congrArg₂ (· * ·) (rows_read m c t _ _ ?_ ?_) (weights0_read m c t _ _ ?_ ?_)
  · show ((((cfg0.win 3).blk t).view.emb j) 0).val = 2000 * t.val + (j 0).val
    rw [hrow, e0]; omega
  · rfl
  · rfl
  · show ((((cfg0.win 3).blk t).view.emb j) 1).val = (j 1).val
    rw [hcol, e1]; omega

/-- What point `t` writes back to the second table is rows 2000·t … of `x · w1`. -/
theorem flushed_second (c : Dev nD) (t : Fin cfg0.N) :
    (dats m 0 c).flushed 4 t = ((cfg0.win 4).blk t).view.read (Elt Ideal) (project (V m c main_arg0) (V m c main_arg2)) := by
  show (cfg0.win 4).cut (grid0.coords t) ((dats m 0 c).after 4 t) = _
  rw [after0_4]
  unfold out0_4
  rw [View.canon_unit_zero origin]
  simp only [View.ld_unit_zero (S := S2000x512) origin, View.ld_unit_zero (S := S512x128) origin]
  obtain ⟨-, -, -, -, -, -, -, -, e0, e1⟩ := block_rows t
  funext j
  show k0_pay3 (F := Ideal) (iblk m c 0 t) (iblk m c 2 t) j = project (V m c main_arg0) (V m c main_arg2) (((cfg0.win 4).blk t).view.emb j)
  refine (second_apply _ _ j).trans ?_
  unfold project
  refine Finset.sum_congr rfl fun k _ => ?_
  have hrow : ((((cfg0.win 4).blk t).view.emb j) 0).val = win0_4.index t (0 : Fin 2) * 2000 + 1 * (j 0).val := rfl
  have hcol : ((((cfg0.win 4).blk t).view.emb j) 1).val = win0_4.index t (1 : Fin 2) * 128 + 1 * (j 1).val := rfl
  refine congrArg₂ (· * ·) (rows_read m c t _ _ ?_ ?_) (weights1_read m c t _ _ ?_ ?_)
  · show ((((cfg0.win 4).blk t).view.emb j) 0).val = 2000 * t.val + (j 0).val
    rw [hrow, e0]; omega
  · rfl
  · rfl
  · show ((((cfg0.win 4).blk t).view.emb j) 1).val = (j 1).val
    rw [hcol, e1]; omega

/-- An entry of the table lies in point `t`'s block iff each coordinate lies in the block's range on its axis. -/
theorem mem_first (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v0_0).slice (win0_3.rect t)).set ↔ _
  rw [View.set_slice_whole, Rect.mem_set_unit]
  exact Iff.rfl

/-- An entry of the table lies in point `t`'s block iff each coordinate lies in the block's range on its axis. -/
theorem mem_second (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v0_1).slice (win0_4.rect t)).set ↔ _
  rw [View.set_slice_whole, Rect.mem_set_unit]
  exact Iff.rfl

/-- Row `r` of the table is written at point `r / 2000`: the 25 row blocks cover the table. -/
theorem cover_first (i : S50000x128.Idx) : ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  let t : Fin cfg0.N := ⟨(i 0).val / 2000, by rw [hN]; omega⟩
  have ht : t.val = (i 0).val / 2000 := rfl
  obtain ⟨-, -, -, -, -, -, e0, e1, -⟩ := block_rows t
  refine ⟨t, flush0_3 t, ?_⟩
  rw [mem_first]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 128 ≤ (i 1).val ∧ (i 1).val < win0_3.index t (1 : Fin 2) * 128 + 128; rw [e1]; omega

/-- Row `r` of the table is written at point `r / 2000`: the 25 row blocks cover the table. -/
theorem cover_second (i : S50000x128.Idx) : ∃ t : Fin cfg0.N, (cfg0.win 4).flush t = true ∧ i ∈ ((cfg0.win 4).blk t).view.set := by
  have hN : cfg0.N = 25 := N_0
  have hi0 : (i 0).val < 50000 := (i 0).isLt
  have hi1 : (i 1).val < 128 := (i 1).isLt
  let t : Fin cfg0.N := ⟨(i 0).val / 2000, by rw [hN]; omega⟩
  have ht : t.val = (i 0).val / 2000 := rfl
  obtain ⟨-, -, -, -, -, -, -, -, e0, e1⟩ := block_rows t
  refine ⟨t, flush0_4 t, ?_⟩
  rw [mem_second]
  intro a
  match a with
  | ⟨0, _⟩ => show win0_4.index t (0 : Fin 2) * 2000 ≤ (i 0).val ∧ (i 0).val < win0_4.index t (0 : Fin 2) * 2000 + 2000; rw [e0, ht]; omega
  | ⟨1, _⟩ => show win0_4.index t (1 : Fin 2) * 128 ≤ (i 1).val ∧ (i 1).val < win0_4.index t (1 : Fin 2) * 128 + 128; rw [e1]; omega

/-- After the last point the first table is `x · w0` of the arguments. -/
theorem first_table (c : Dev nD) :
    (dats m 0 c).arrAt 3 cfg0.N = project (m ((c : Thread nD τ).loc main_arg0)) (m ((c : Thread nD τ).loc main_arg1)) :=
  (dats m 0 c).arrAt_eq_of_cover 3 (project (V m c main_arg0) (V m c main_arg1)) (fun t _ => flushed_first m c t) cover_first

/-- After the last point the second table is `x · w1` of the arguments. -/
theorem second_table (c : Dev nD) :
    (dats m 0 c).arrAt 4 cfg0.N = project (m ((c : Thread nD τ).loc main_arg0)) (m ((c : Thread nD τ).loc main_arg2)) :=
  (dats m 0 c).arrAt_eq_of_cover 4 (project (V m c main_arg0) (V m c main_arg2)) (fun t _ => flushed_second m c t) cover_second

end Cert.KernelIdeal.Tables

end
-- ==== Proof.KernelRun.lean ====
/-
  The kernel program's run, read: the two projected tables, then the edge aggregation.

  The kernel region leaves `x · w0` and `x · w1` in its two result arrays and the arguments as they were.
  The host lines after the region then gather, scale and scatter-add those tables along the two adjacencies
  and add the two results: the function `layer` of the two tables and the four adjacency arrays.
-/
import proofs.«163216_j72181220376891_1_alg».proof.Proof.ProjectedTables
import proofs.«163216_j72181220376891_1_alg».proof.Proof.EdgeAggregate
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)
open Cert.GraphConv Cert.KernelIdeal.Tables

variable (m : (ℓ : Loc nD τ sig) → Buf (Elt Ideal) ℓ) (ρ : Dev nD → PrngReg)

/-- What the lines after the region find in the first result array: `x · w0`. -/
theorem found_first (c : Dev nD) :
    Pipeline.withArrays (cfgs 0).spec c (V0 m c) (fun w => (dats m 0 c).arrAt w (cfgs 0).N) (Proc.devRef .tc main_v0_0)
      = project (m ((c : Thread nD τ).loc main_arg0)) (m ((c : Thread nD τ).loc main_arg1)) :=
  (Pipeline.withArrays_arr spec0 launch0.win.arr_inj c _ _ 3).trans (first_table m c)

/-- In the second: `x · w1`. -/
theorem found_second (c : Dev nD) :
    Pipeline.withArrays (cfgs 0).spec c (V0 m c) (fun w => (dats m 0 c).arrAt w (cfgs 0).N) (Proc.devRef .tc main_v0_1)
      = project (m ((c : Thread nD τ).loc main_arg0)) (m ((c : Thread nD τ).loc main_arg2)) :=
  (Pipeline.withArrays_arr spec0 launch0.win.arr_inj c _ _ 4).trans (second_table m c)

/-- The adjacency arrays bypass the region: the lines after it find them as launched. -/
theorem found_arg3 (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans (V_main_arg3 m c)
theorem found_arg4 (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans (V_main_arg4 m c)
theorem found_arg5 (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by exact (by decide : ∀ w, Pipeline.arrRef spec0 w ≠ main_arg5))).trans (V_main_arg5 m c)
theorem found_arg6 (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne _ c (V0 m c) _ main_arg6 (by exact (by decide : ∀ w, Pipeline.arrRef spec0 w ≠ main_arg6))).trans (V_main_arg6 m c)

set_option maxHeartbeats 400000 in
/-- The result buffer after the last host line: the layer of the two projections. -/
theorem result_value (c : Dev nD) :
    Pipeline.afterTail₀ cfgs (dats m) 0 (V0 m) [hostOps1] c main_v35
      = layer (project (m ((c : Thread nD τ).loc main_arg0)) (m ((c : Thread nD τ).loc main_arg1)))
          (project (m ((c : Thread nD τ).loc main_arg0)) (m ((c : Thread nD τ).loc main_arg2)))
          (m ((c : Thread nD τ).loc main_arg3)) (m ((c : Thread nD τ).loc main_arg4))
          (m ((c : Thread nD τ).loc main_arg5)) (m ((c : Thread nD τ).loc main_arg6)) := by
  unfold Pipeline.afterTail₀
  show StableHlo.after hostOps1 _ (Proc.devRef .tc main_v35) = _
  after_results_simp
  rw [found_first m c, found_second m c, found_arg3 m c, found_arg4 m c, found_arg5 m c, found_arg6 m c]
  rfl

/-- Every weakly fair execution of the kernel program ends with its result at the layer of the two projections
    of the arguments, and the arguments unchanged. -/
theorem run : θ_run defs (onTc (τ := τ) (main (F := Ideal))) ⟨m, fun _ => 0, ρ⟩ fun r => ∀ c : Dev nD,
      r.2.mem ((c.tc : Thread nD τ).loc main_v35)
        = layer (project (m ((c.tc : Thread nD τ).loc main_arg0)) (m ((c.tc : Thread nD τ).loc main_arg1)))
            (project (m ((c.tc : Thread nD τ).loc main_arg0)) (m ((c.tc : Thread nD τ).loc main_arg2)))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v35 (Pipeline.mem_restRefs_of main_v35 (by decide) (by decide))).trans (result_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Whole

end
-- ==== Proof.ReferenceRun.lean ====
/-
  The reference program's run, read: the same layer of the same two projections.

  The reference multiplies the node features by each weight matrix on the host — at the extended reals
  a `dot_general` entry is the plain sum Σ_k x[r, k] · w[k, c], which is `project` — and then applies the
  edge aggregation to the two products: the function `layer`.
-/
import proofs.«163216_j72181220376891_1_alg».proof.Proof.Gen.ReferenceIdeal.Read
import proofs.«163216_j72181220376891_1_alg».proof.Proof.Projection

noncomputable section

namespace Cert.ReferenceIdeal.Whole

open Cert.ReferenceIdeal Cert.ReferenceIdeal.Gen Idealize.ShloMosaic Idealize.ShloMosaic.TcCoe Idealize.SL.Sem
open Cert.GraphConv

/-- The host's product of the features by a weight matrix is the projection. -/
theorem dot_project (x : (⟨S50000x512, .f32⟩ : BufTy).Contents (Elt Ideal)) (w : (⟨S512x128, .f32⟩ : BufTy).Contents (Elt Ideal)) :
    Host.dotGeneral (F := Ideal) (φ₁ := .f32) (φ₂ := .f32) dot_S50000x512_S512x128_S50000x128_1_0_0_1_n_n none x w = project x w := by
  funext i
  refine (Read.val_main_v0_apply x w i).trans ?_
  unfold project
  refine Finset.sum_congr rfl fun k _ => ?_
  have el : Read.lidx_main_v0 i k = inpAt i k := funext fun a => Fin.ext (by
    match a with
    | ⟨0, _⟩ => rfl
    | ⟨1, _⟩ => rfl)
  have er : Read.ridx_main_v0 i k = wtAt i k := funext fun a => Fin.ext (by
    match a with
    | ⟨0, _⟩ => rfl
    | ⟨1, _⟩ => rfl)
  rw [el, er]

variable (m : (ℓ : Loc nD τ sig) → Buf (Elt Ideal) ℓ) (ρ : Dev nD → PrngReg)

set_option maxHeartbeats 400000 in
/-- Every weakly fair execution of the reference ends with its result at the layer of the two projections
    of the arguments, and the arguments unchanged. -/
theorem run : θ_run defs (onTc (τ := τ) (main (F := Ideal))) ⟨m, fun _ => 0, ρ⟩ fun r => ∀ c : Dev nD,
      r.2.mem ((c.tc : Thread nD τ).loc main_v36)
        = layer (project (m ((c.tc : Thread nD τ).loc main_arg0)) (m ((c.tc : Thread nD τ).loc main_arg1)))
            (project (m ((c.tc : Thread nD τ).loc main_arg0)) (m ((c.tc : Thread nD τ).loc main_arg2)))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by rw [dot_project, dot_project]; rfl), (h c).2⟩)
    (Cert.ReferenceIdeal.Value.run (F := Ideal) m ρ)

end Cert.ReferenceIdeal.Whole

end
-- ==== Proof.lean ====
/-
  A graph-convolution layer: the node features `x` (50000 × 512) are projected by two weight matrices
  (512 × 128 each), and each projected table is aggregated along its own weighted adjacency (600000 edges:
  every edge adds its weight times its source's row into its destination's row); the two aggregates are added.

  The kernel program computes the two projections in one grid of 25 row blocks (bf16 operands, an exact
  f32 accumulator) and leaves the aggregation to the host; the reference does everything on the host. Over the
  extended reals rounding to bf16 is the identity and both products are the plain sums Σ_k x[r, k] · w[k, c]
  (`project`), so both programs end at `layer (project x w0) (project x w1)` of the four adjacency arrays —
  the same term, the aggregation never opened. No law beyond re-indexing a finite sum is used, so the
  finiteness of the inputs is never needed.

  The frames of the two kernel programs are the generated ones; the reference's frame is its run with the
  result dropped; the idealization rewrote nothing, so `preserves` is trivial.
-/
import proofs.«163216_j72181220376891_1_alg».proof.Defs
import proofs.«163216_j72181220376891_1_alg».proof.Proof.Gen.Kernel
import proofs.«163216_j72181220376891_1_alg».proof.Proof.Gen.Kernel.Frame
import proofs.«163216_j72181220376891_1_alg».proof.Proof.Gen.KernelIdeal
import proofs.«163216_j72181220376891_1_alg».proof.Proof.Gen.KernelIdeal.Frame
import proofs.«163216_j72181220376891_1_alg».proof.Proof.Gen.ReferenceIdeal
import proofs.«163216_j72181220376891_1_alg».proof.Proof.Gen.Pre_finite_inputs
import proofs.«163216_j72181220376891_1_alg».proof.Proof.Gen.ReferenceIdeal.Run
import proofs.«163216_j72181220376891_1_alg».proof.Proof.Gen.ReferenceIdeal.Read
import proofs.«163216_j72181220376891_1_alg».proof.Proof.KernelRun
import proofs.«163216_j72181220376891_1_alg».proof.Proof.ReferenceRun
import Idealize.ShloMosaic.Adequacy
import Idealize.ShloMosaic.Init

noncomputable section

namespace Cert.Proof

open Idealize.ShloMosaic Idealize.SL.Sem Cert.GraphConv

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the seven arguments both programs end at the layer of the two projections. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨e0, e1, e2, e3, e4, e5, e6⟩ := hagree c
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
